-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 86
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .i1⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result named.

  @main is eight segments: three stretches of host operations, the first pallas_call, a stretch, the second pallas_call, a
  stretch, the third pallas_call. Every weakly fair execution runs them in order and terminates; at the end every buffer
  outside the scoped memories holds the contents of the last segment boundary (the fold `W8` of the launch memory through
  the host operations and the three regions' write-backs). Read at the result buffer and at the six argument buffers,
  that says: the result is `W8` at the result buffer, and the arguments are as launched.
-/
import proofs.«109260_j16432544874989_1_alg».proof.Proof.Gen.KernelIdeal.Frame

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    argument arrays as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Launched

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.LibGcnLayers.lean ====
/-
  The three dense stages of a two-layer graph convolution, as whole-array functions over the extended reals.

  With rows indexed by nodes: `lin x w` is the product x·w, entry (n, d) = Σ_k x (n, k) · w (k, d); `hidden a b w` adds
  the row vector b to every row of a, applies the leaky rectifier z ↦ z if z ≥ 0 else s·z (s the 32-bit float nearest
  1/100, kept as its binary word), and multiplies by w; `addRow a b` adds the row vector b to every row of a.

  Each is also what a tile of T consecutive rows computes from that tile alone: a product into a zero accumulator after a
  change of format (the identity on the extended reals), a row vector stretched over the tile, and the rectifier
  element by element. A tile's height and position never enter, so an array computed tile by tile is the whole-array
  function. No program is mentioned here.
-/
import proofs.«109260_j16432544874989_1_alg».proof.Proof.LibDense
import Idealize.ShloMosaic.Lib.ValueLayout

noncomputable section

open scoped BigOperators

namespace GcnLayers

open Idealize.ShloMosaic Idealize.ShloMosaic.ValueIdx

/-- A two-axis array of extended reals. -/
abbrev Arr (n0 n1 : ℕ) : Type := (⟨2, ![n0, n1]⟩ : Shape).Idx → EReal

/-- The leaky rectifier on one extended real: z where z ≥ 0, otherwise the slope word times z. -/
def lrelu (z : EReal) : EReal :=
  Scalar.select (FloatOps.cmpf (F := Ideal) (φ := .f32) .oge z (FloatOps.ofBits (F := Ideal) .f32 0x00000000#32)) z
    (FloatOps.mulf (F := Ideal) (φ := .f32) (FloatOps.ofBits (F := Ideal) .f32 0x3C23D70A#32) z)

/-- The product x·w: entry (n, d) is the sum over k of x (n, k) · w (k, d). -/
def lin {N K D : ℕ} (x : Arr N K) (w : Arr K D) : Arr N D :=
  fun i => ∑ k : Fin K, x (ix2 (n0 := N) (n1 := K) (i 0) k) * w (ix2 (n0 := K) (n1 := D) k (i 1))

/-- Bias, leaky rectifier, product: entry (n, d) is the sum over k of lrelu (a (n, k) + b (0, k)) · w (k, d). -/
def hidden {N K D : ℕ} (a : Arr N K) (b : Arr 1 K) (w : Arr K D) : Arr N D :=
  fun i => ∑ k : Fin K, lrelu (a (ix2 (n0 := N) (n1 := K) (i 0) k) + b (ix2 (n0 := 1) (n1 := K) 0 k))
    * w (ix2 (n0 := K) (n1 := D) k (i 1))

/-- The row vector b added to every row of a. -/
def addRow {N D : ℕ} (a : Arr N D) (b : Arr 1 D) : Arr N D :=
  fun i => a i + b (ix2 (n0 := 1) (n1 := D) 0 (i 1))

theorem lin_apply {N K D : ℕ} (x : Arr N K) (w : Arr K D) (n : Fin N) (d : Fin D) :
    lin x w (ix2 n d) = ∑ k : Fin K, x (ix2 n k) * w (ix2 k d) := rfl

theorem hidden_apply {N K D : ℕ} (a : Arr N K) (b : Arr 1 K) (w : Arr K D) (n : Fin N) (d : Fin D) :
    hidden a b w (ix2 n d) = ∑ k : Fin K, lrelu (a (ix2 n k) + b (ix2 0 k)) * w (ix2 k d) := rfl

theorem addRow_apply {N D : ℕ} (a : Arr N D) (b : Arr 1 D) (n : Fin N) (d : Fin D) :
    addRow a b (ix2 n d) = a (ix2 n d) + b (ix2 0 d) := rfl

/-- A row vector [1, K] stretched over T rows reads, at (r, k), its entry k. -/
theorem stretch_row_apply {T K : ℕ} {α : Type} (v : (⟨2, ![1, K]⟩ : Shape).Idx → α)
    (h : (⟨2, ![1, K]⟩ : Shape).Broadcasts ⟨2, ![T, K]⟩) (r : Fin T) (k : Fin K) :
    broadcastTo ⟨2, ![T, K]⟩ v h (ix2 r k) = v (ix2 (n0 := 1) (n1 := K) 0 k) := by
  refine broadcastTo_apply v h (ix2 r k) (ix2 (n0 := 1) (n1 := K) 0 k) fun a => ?_
  match a with
  | ⟨0, _⟩ => show (0 : ℕ) = if (1 : ℕ) = 1 then 0 else _; rw [if_pos rfl]
  | ⟨1, _⟩ =>
    show k.val = if K = 1 then 0 else k.val
    split
    · rename_i hK; have := k.isLt; omega
    · rfl

/-- A tile of T rows of the product: after the change of format of both factors, into the zero accumulator. -/
theorem lin_tile {T K D : ℕ} (d : DotDims ⟨2, ![T, K]⟩ ⟨2, ![K, D]⟩ ⟨2, ![T, D]⟩) (hd : d = DotDims.plain T K D)
    (prec : Option ContractPrecision) (x : FVec Ideal ⟨2, ![T, K]⟩ .f32) (w : FVec Ideal ⟨2, ![K, D]⟩ .f32)
    (h1 : FTy.bf16.bits < FTy.f32.bits) (r : Fin T) (c : Fin D) :
    matmul d prec (truncf .bf16 x h1) (truncf .bf16 w h1) (constant ⟨2, ![T, D]⟩ .f32 0x00000000#32) (ix2 r c)
      = ∑ k : Fin K, x (ix2 r k) * w (ix2 k c) :=
  LibDense.plain_matmul_apply d hd prec (truncf .bf16 x h1) (truncf .bf16 w h1) r c

/-- The rectifier as vector operations compute it (compare with a stretched zero, select between the value and the
    stretched slope times the value), element by element. -/
theorem lrelu_vec {s : Shape} (v : FVec Ideal s .f32) (i : s.Idx) :
    (select (cmpf .oge v (broadcast s (Scalar.ofBits (F := Ideal) .f32 0x00000000#32))) v
      (mulf (broadcast s (Scalar.ofBits (F := Ideal) .f32 0x3C23D70A#32)) v) : FVec Ideal s .f32) i = lrelu (v i) := rfl

/-- A tile plus a row vector stretched over it (after casts to their own shapes), at (r, k). -/
theorem row_plus_apply {T K : ℕ} (x : FVec Ideal ⟨2, ![T, K]⟩ .f32) (b : FVec Ideal ⟨2, ![1, K]⟩ .f32)
    (h0 : (⟨2, ![T, K]⟩ : Shape).ShapeCasts ⟨2, ![T, K]⟩) (h1 : (⟨2, ![1, K]⟩ : Shape).ShapeCasts ⟨2, ![1, K]⟩)
    (h2 : (⟨2, ![1, K]⟩ : Shape).Broadcasts ⟨2, ![T, K]⟩) (r : Fin T) (k : Fin K) :
    (addf (shapeCast ⟨2, ![T, K]⟩ x h0) (broadcastTo ⟨2, ![T, K]⟩ (shapeCast ⟨2, ![1, K]⟩ b h1) h2) : FVec Ideal ⟨2, ![T, K]⟩ .f32) (ix2 r k)
      = x (ix2 r k) + b (ix2 (n0 := 1) (n1 := K) 0 k) := by
  rw [shapeCast_self, shapeCast_self]
  exact congrArg (x (ix2 r k) + ·) (stretch_row_apply b h2 r k)

/-- A tile of T rows of `hidden`: bias, rectifier, change of format, product into the zero accumulator. -/
theorem hidden_tile {T K D : ℕ} (d : DotDims ⟨2, ![T, K]⟩ ⟨2, ![K, D]⟩ ⟨2, ![T, D]⟩) (hd : d = DotDims.plain T K D)
    (prec : Option ContractPrecision) (x : FVec Ideal ⟨2, ![T, K]⟩ .f32) (b : FVec Ideal ⟨2, ![1, K]⟩ .f32)
    (w : FVec Ideal ⟨2, ![K, D]⟩ .f32)
    (h0 : (⟨2, ![T, K]⟩ : Shape).ShapeCasts ⟨2, ![T, K]⟩) (h1 : (⟨2, ![1, K]⟩ : Shape).ShapeCasts ⟨2, ![1, K]⟩)
    (h2 : (⟨2, ![1, K]⟩ : Shape).Broadcasts ⟨2, ![T, K]⟩) (hb : FTy.bf16.bits < FTy.f32.bits) (r : Fin T) (c : Fin D) :
    matmul d prec
        (truncf .bf16
          (select
            (cmpf .oge (addf (shapeCast ⟨2, ![T, K]⟩ x h0) (broadcastTo ⟨2, ![T, K]⟩ (shapeCast ⟨2, ![1, K]⟩ b h1) h2))
              (broadcast ⟨2, ![T, K]⟩ (Scalar.ofBits (F := Ideal) .f32 0x00000000#32)))
            (addf (shapeCast ⟨2, ![T, K]⟩ x h0) (broadcastTo ⟨2, ![T, K]⟩ (shapeCast ⟨2, ![1, K]⟩ b h1) h2))
            (mulf (broadcast ⟨2, ![T, K]⟩ (Scalar.ofBits (F := Ideal) .f32 0x3C23D70A#32))
              (addf (shapeCast ⟨2, ![T, K]⟩ x h0) (broadcastTo ⟨2, ![T, K]⟩ (shapeCast ⟨2, ![1, K]⟩ b h1) h2)))) hb)
        (truncf .bf16 w hb) (constant ⟨2, ![T, D]⟩ .f32 0x00000000#32) (ix2 r c)
      = ∑ k : Fin K, lrelu (x (ix2 r k) + b (ix2 (n0 := 1) (n1 := K) 0 k)) * w (ix2 k c) :=
  (lin_tile d hd prec _ w hb r c).trans
    (Finset.sum_congr rfl fun k _ => congrArg (· * w (ix2 k c))
      ((lrelu_vec _ (ix2 r k)).trans (congrArg lrelu (row_plus_apply x b h0 h1 h2 r k))))

/-- A vector of K entries laid out as the one row of a [1, K] array. -/
def asRow {K : ℕ} {α : Type} (x : (⟨1, ![K]⟩ : Shape).Idx → α) : (⟨2, ![1, K]⟩ : Shape).Idx → α :=
  fun j => x (ix1 (n := K) (j 1))

/-- A reshape of a vector to one row is that row. -/
theorem shapeCast_asRow {K : ℕ} {α : Type} (x : (⟨1, ![K]⟩ : Shape).Idx → α)
    (h : (⟨1, ![K]⟩ : Shape).ShapeCasts ⟨2, ![1, K]⟩) : shapeCast ⟨2, ![1, K]⟩ x h = asRow x := by
  funext j
  refine shapeCast_apply x h j (ix1 (n := K) (j 1)) ?_
  rw [Shape.rowMajor_val_two, Shape.rowMajor_val_one]
  have h0 : (j 0).val < 1 := (j 0).isLt
  show (j 1).val = (j 0).val * K + (j 1).val
  have : (j 0).val = 0 := by omega
  rw [this]; omega

end GcnLayers

end
-- ==== Proof.KRegion0.lean ====
/-
  The first pallas_call: the array it leaves is the product of its two operand arrays.

  Grid point t (of 20) stages rows 5000·t … 5000·t + 4999 of the left operand, the whole right operand, and writes back
  the same rows of the result. Its tile is the product of the staged rows with the right operand (a tile of `lin`), the
  output blocks are disjoint and together cover all 100000 rows, so the result array ends as `lin` of the operand arrays as
  the region finds them — whatever those contents are.
-/
import proofs.«109260_j16432544874989_1_alg».proof.Proof.Gen.KernelIdeal.Frame
import proofs.«109260_j16432544874989_1_alg».proof.Proof.LibGcnLayers

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem off_zero : (![0, 0] : Fin 2 → Nat) = fun _ => 0 := funext fun a => by fin_cases a <;> rfl

/-- The tile the body stores, entry (r, q): the sum over k of left (r, k) · right (k, q). -/
theorem tile0 (x0 : Vec Ideal S5000x256 .f32) (x1 : Vec Ideal S256x128 .f32) (j : S5000x128.Idx) :
    k0_pay1 (F := Ideal) x0 x1 j
      = ∑ k : Fin 256, x0 (ix2 (n0 := 5000) (n1 := 256) (j 0) k) * x1 (ix2 (n0 := 256) (n1 := 128) k (j 1)) := by
  obtain ⟨r, q, rfl⟩ : ∃ (r : Fin 5000) (q : Fin 128), j = ix2 r q := ⟨j 0, j 1, eq_ix2 j⟩
  unfold k0_pay1
  exact GcnLayers.lin_tile dot_S5000x256_S256x128_S5000x128_1_0_0_1_n_n rfl none x0 x1 bitsLt_bf16_f32 r q

/-- The index maps over the grid: the left operand's and the result's blocks move with the point along the rows, the
    right operand's block stays. -/
theorem index0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point t writes back is block t of the product of the operand arrays. -/
theorem flushed0 (c : Dev nD) (t : Fin cfg0.N) :
    (dat0 V c).flushed 2 t
      = ((cfg0.win 2).blk t).view.read (Elt Ideal) (GcnLayers.lin (N := 100000) (K := 256) (D := 128) (V c main_arg0) (V c main_arg2)) := by
  show (cfg0.win 2).cut (grid0.coords t) ((dat0 V c).after 2 t) = _
  rw [after0_2]
  unfold out0_2
  rw [View.canon_unit_zero off_zero]
  simp only [View.ld_unit_zero (S := S5000x256) off_zero, View.ld_unit_zero (S := S256x128) off_zero]
  obtain ⟨e0, e1, e2, e3, e4, e5⟩ := index0 t
  funext j
  show k0_pay1 (F := Ideal) (iblk0 V c 0 t) (iblk0 V c 1 t) j
    = GcnLayers.lin (N := 100000) (K := 256) (D := 128) (V c main_arg0) (V c main_arg2) (((cfg0.win 2).blk t).view.emb j)
  refine (tile0 (iblk0 V c 0 t) (iblk0 V c 1 t) j).trans ?_
  refine Finset.sum_congr rfl fun k _ => ?_
  have hl : iblk0 V c 0 t (ix2 (n0 := 5000) (n1 := 256) (j 0) k)
      = V c main_arg0 (ix2 (n0 := 100000) (n1 := 256) ((((cfg0.win 2).blk t).view.emb j) 0) k) := by
    show V c main_arg0 (((cfg0.win 0).blk t).view.emb (ix2 (n0 := 5000) (n1 := 256) (j 0) k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  have hr : iblk0 V c 1 t (ix2 (n0 := 256) (n1 := 128) k (j 1))
      = V c main_arg2 (ix2 (n0 := 256) (n1 := 128) k ((((cfg0.win 2).blk t).view.emb j) 1)) := by
    show V c main_arg2 (((cfg0.win 1).blk t).view.emb (ix2 (n0 := 256) (n1 := 128) k (j 1))) = _
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_2.index t (1 : Fin 2) * 128 + 1 * (j 1).val
      omega
  rw [hl, hr]

/-- An index of the result array lies in point t's block iff its coordinates lie in the block's ranges. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Every row is in the block of the point numbered by its row divided by 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := rfl
  let t : Fin cfg0.N := ⟨(i 0).val / 5000, by rw [hN]; omega⟩
  have ht : t.val = (i 0).val / 5000 := rfl
  obtain ⟨e0, e1, -, -, -, -⟩ := index0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region: the product of the operand arrays as the region finds them. -/
theorem final0 (c : Dev nD) :
    (dat0 V c).arrAt 2 cfg0.N = GcnLayers.lin (N := 100000) (K := 256) (D := 128) (V c main_arg0) (V c main_arg2) :=
  (dat0 V c).arrAt_eq_of_cover 2 _ (fun t _ => flushed0 V c t) (cover0)

end Cert.KernelIdeal.Dense

end
-- ==== Proof.KRegion1.lean ====
/-
  The second pallas_call: the array it leaves is `hidden` of its three operand arrays.

  Grid point t (of 20) stages rows 5000·t … 5000·t + 4999 of the first operand, the whole row vector and the whole weight
  array, and writes back the same rows of the result. Its tile adds the row vector to every staged row, applies the leaky
  rectifier, and multiplies by the weights — a tile of `hidden` — and the output blocks cover all 100000 rows.
-/
import proofs.«109260_j16432544874989_1_alg».proof.Proof.Gen.KernelIdeal.Frame
import proofs.«109260_j16432544874989_1_alg».proof.Proof.LibGcnLayers

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem off_zero1 : (![0, 0] : Fin 2 → Nat) = fun _ => 0 := funext fun a => by fin_cases a <;> rfl

/-- The tile the body stores, entry (r, q): the sum over k of lrelu (rows (r, k) + vector (0, k)) · weights (k, q). -/
theorem tile1 (x0 : Vec Ideal S5000x128 .f32) (x1 : Vec Ideal S1x128 .f32) (x2 : Vec Ideal S128x64 .f32) (j : S5000x64.Idx) :
    k1_pay1 (F := Ideal) x0 x1 x2 j
      = ∑ k : Fin 128, GcnLayers.lrelu (x0 (ix2 (n0 := 5000) (n1 := 128) (j 0) k) + x1 (ix2 (n0 := 1) (n1 := 128) 0 k))
          * x2 (ix2 (n0 := 128) (n1 := 64) k (j 1)) := by
  obtain ⟨r, q, rfl⟩ : ∃ (r : Fin 5000) (q : Fin 64), j = ix2 r q := ⟨j 0, j 1, eq_ix2 j⟩
  unfold k1_pay1
  exact GcnLayers.hidden_tile dot_S5000x128_S128x64_S5000x64_1_0_0_1_n_n rfl none x0 x1 x2
    shapeCasts_S5000x128_S5000x128 shapeCasts_S1x128_S1x128 broadcasts_S1x128_S5000x128 bitsLt_bf16_f32 r q

/-- The index maps over the grid: the first operand's and the result's blocks move with the point along the rows, the
    row vector's and the weights' blocks stay. -/
theorem index1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What point t writes back is block t of `hidden` of the operand arrays. -/
theorem flushed1 (c : Dev nD) (t : Fin cfg1.N) :
    (dat1 V c).flushed 3 t
      = ((cfg1.win 3).blk t).view.read (Elt Ideal)
          (GcnLayers.hidden (N := 100000) (K := 128) (D := 64) (V c main_v45) (V c main_v46) (V c main_arg4)) := by
  show (cfg1.win 3).cut (grid1.coords t) ((dat1 V c).after 3 t) = _
  rw [after1_3]
  unfold out1_3
  rw [View.canon_unit_zero off_zero1]
  simp only [View.ld_unit_zero (S := S5000x128) off_zero1, View.ld_unit_zero (S := S1x128) off_zero1,
    View.ld_unit_zero (S := S128x64) off_zero1]
  obtain ⟨e0, e1, e2, e3, e4, e5, e6, e7⟩ := index1 t
  funext j
  show k1_pay1 (F := Ideal) (iblk1 V c 0 t) (iblk1 V c 1 t) (iblk1 V c 2 t) j
    = GcnLayers.hidden (N := 100000) (K := 128) (D := 64) (V c main_v45) (V c main_v46) (V c main_arg4)
        (((cfg1.win 3).blk t).view.emb j)
  refine (tile1 (iblk1 V c 0 t) (iblk1 V c 1 t) (iblk1 V c 2 t) j).trans ?_
  refine Finset.sum_congr rfl fun k _ => ?_
  have ha : iblk1 V c 0 t (ix2 (n0 := 5000) (n1 := 128) (j 0) k)
      = V c main_v45 (ix2 (n0 := 100000) (n1 := 128) ((((cfg1.win 3).blk t).view.emb j) 0) k) := by
    show V c main_v45 (((cfg1.win 0).blk t).view.emb (ix2 (n0 := 5000) (n1 := 128) (j 0) k)) = _
    refine congrArg (V c main_v45) (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 128 + 1 * k.val = k.val
      omega
  have hb : iblk1 V c 1 t (ix2 (n0 := 1) (n1 := 128) 0 k) = V c main_v46 (ix2 (n0 := 1) (n1 := 128) 0 k) := by
    show V c main_v46 (((cfg1.win 1).blk t).view.emb (ix2 (n0 := 1) (n1 := 128) 0 k)) = _
    refine congrArg (V c main_v46) (funext fun a => Fin.ext ?_)
    match a with
    | ⟨0, _⟩ =>
      show win1_1.index t (0 : Fin 2) * 1 + 1 * 0 = 0
      omega
    | ⟨1, _⟩ =>
      show win1_1.index t (1 : Fin 2) * 128 + 1 * k.val = k.val
      omega
  have hw : iblk1 V c 2 t (ix2 (n0 := 128) (n1 := 64) k (j 1))
      = V c main_arg4 (ix2 (n0 := 128) (n1 := 64) k ((((cfg1.win 3).blk t).view.emb j) 1)) := by
    show V c main_arg4 (((cfg1.win 2).blk t).view.emb (ix2 (n0 := 128) (n1 := 64) k (j 1))) = _
    refine congrArg (V c main_arg4) (funext fun a => Fin.ext ?_)
    match a with
    | ⟨0, _⟩ =>
      show win1_2.index t (0 : Fin 2) * 128 + 1 * k.val = k.val
      omega
    | ⟨1, _⟩ =>
      show win1_2.index t (1 : Fin 2) * 64 + 1 * (j 1).val = win1_3.index t (1 : Fin 2) * 64 + 1 * (j 1).val
      omega
  rw [ha, hb, hw]

/-- An index of the result array lies in point t's block iff its coordinates lie in the block's ranges. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v47).slice (win1_3.rect t)).set ↔ _
  rw [View.set_slice_whole, Rect.mem_set_unit]
  exact Iff.rfl

/-- Every row is in the block of the point numbered by its row divided by 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := rfl
  let t : Fin cfg1.N := ⟨(i 0).val / 5000, by rw [hN]; omega⟩
  have ht : t.val = (i 0).val / 5000 := rfl
  obtain ⟨e0, e1, -, -, -, -, -, -⟩ := index1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The result array after the region: `hidden` of the operand arrays as the region finds them. -/
theorem final1 (c : Dev nD) :
    (dat1 V c).arrAt 3 cfg1.N
      = GcnLayers.hidden (N := 100000) (K := 128) (D := 64) (V c main_v45) (V c main_v46) (V c main_arg4) :=
  (dat1 V c).arrAt_eq_of_cover 3 _ (fun t _ => flushed1 V c t) (cover1)

end Cert.KernelIdeal.Dense

end
-- ==== Proof.KRegion2.lean ====
/-
  The third pallas_call: the array it leaves is its first operand array with the row vector added to every row.

  Grid point t (of 10) stages rows 10000·t … 10000·t + 9999 of the first operand and the whole row vector, and writes back
  the same rows of the result: the staged rows plus the stretched vector — a tile of `addRow`. The output blocks cover all
  100000 rows.
-/
import proofs.«109260_j16432544874989_1_alg».proof.Proof.Gen.KernelIdeal.Frame
import proofs.«109260_j16432544874989_1_alg».proof.Proof.LibGcnLayers

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem off_zero2 : (![0, 0] : Fin 2 → Nat) = fun _ => 0 := funext fun a => by fin_cases a <;> rfl

/-- The tile the body stores, entry (r, q): rows (r, q) + vector (0, q). -/
theorem tile2 (x0 : Vec Ideal S10000x64 .f32) (x1 : Vec Ideal S1x64 .f32) (j : S10000x64.Idx) :
    k2_pay1 (F := Ideal) x0 x1 j = x0 j + x1 (ix2 (n0 := 1) (n1 := 64) 0 (j 1)) := by
  obtain ⟨r, q, rfl⟩ : ∃ (r : Fin 10000) (q : Fin 64), j = ix2 r q := ⟨j 0, j 1, eq_ix2 j⟩
  unfold k2_pay1
  exact GcnLayers.row_plus_apply x0 x1 shapeCasts_S10000x64_S10000x64 shapeCasts_S1x64_S1x64 broadcasts_S1x64_S10000x64 r q

/-- The index maps over the grid: the first operand's and the result's blocks move with the point along the rows, the
    row vector's block stays. -/
theorem index2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point t writes back is block t of `addRow` of the operand arrays. -/
theorem flushed2 (c : Dev nD) (t : Fin cfg2.N) :
    (dat2 V c).flushed 2 t
      = ((cfg2.win 2).blk t).view.read (Elt Ideal) (GcnLayers.addRow (N := 100000) (D := 64) (V c main_v60) (V c main_v61)) := by
  show (cfg2.win 2).cut (grid2.coords t) ((dat2 V c).after 2 t) = _
  rw [after2_2]
  unfold out2_2
  rw [View.canon_unit_zero off_zero2]
  simp only [View.ld_unit_zero (S := S10000x64) off_zero2, View.ld_unit_zero (S := S1x64) off_zero2]
  obtain ⟨e0, e1, e2, e3, e4, e5⟩ := index2 t
  funext j
  show k2_pay1 (F := Ideal) (iblk2 V c 0 t) (iblk2 V c 1 t) j
    = GcnLayers.addRow (N := 100000) (D := 64) (V c main_v60) (V c main_v61) (((cfg2.win 2).blk t).view.emb j)
  refine (tile2 (iblk2 V c 0 t) (iblk2 V c 1 t) j).trans ?_
  have ha : iblk2 V c 0 t j = V c main_v60 (((cfg2.win 2).blk t).view.emb j) := by
    show V c main_v60 (((cfg2.win 0).blk t).view.emb j) = _
    refine congrArg (V c main_v60) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * (j 1).val = win2_2.index t (1 : Fin 2) * 64 + 1 * (j 1).val
      omega
  have hb : iblk2 V c 1 t (ix2 (n0 := 1) (n1 := 64) 0 (j 1))
      = V c main_v61 (ix2 (n0 := 1) (n1 := 64) 0 ((((cfg2.win 2).blk t).view.emb j) 1)) := by
    show V c main_v61 (((cfg2.win 1).blk t).view.emb (ix2 (n0 := 1) (n1 := 64) 0 (j 1))) = _
    refine congrArg (V c main_v61) (funext fun a => Fin.ext ?_)
    match a with
    | ⟨0, _⟩ =>
      show win2_1.index t (0 : Fin 2) * 1 + 1 * 0 = 0
      omega
    | ⟨1, _⟩ =>
      show win2_1.index t (1 : Fin 2) * 64 + 1 * (j 1).val = win2_2.index t (1 : Fin 2) * 64 + 1 * (j 1).val
      omega
  rw [ha, hb]
  rfl

/-- An index of the result array lies in point t's block iff its coordinates lie in the block's ranges. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v62).slice (win2_2.rect t)).set ↔ _
  rw [View.set_slice_whole, Rect.mem_set_unit]
  exact Iff.rfl

/-- Every row is in the block of the point numbered by its row divided by 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := rfl
  let t : Fin cfg2.N := ⟨(i 0).val / 10000, by rw [hN]; omega⟩
  have ht : t.val = (i 0).val / 10000 := rfl
  obtain ⟨e0, e1, -, -, -, -⟩ := index2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The result array after the region: `addRow` of the operand arrays as the region finds them. -/
theorem final2 (c : Dev nD) :
    (dat2 V c).arrAt 2 cfg2.N = GcnLayers.addRow (N := 100000) (D := 64) (V c main_v60) (V c main_v61) :=
  (dat2 V c).arrAt_eq_of_cover 2 _ (fun t _ => flushed2 V c t) (cover2)

end Cert.KernelIdeal.Dense

end
-- ==== Proof.KEdges.lean ====
/-
  The graph's edge data and the untouched arguments at every segment boundary of the idealized kernel's @main.

  The first stretches of host operations compute, from the edge list alone, the source indices (edges then self loops), the
  destination indices, and the edge weights dinv[src]·dinv[dst]; these are the reference's own stages of the same names.
  No later host operation and no pallas_call writes them (nor the bias and weight arguments a later region reads), so
  each boundary's contents at those buffers are the same values.
-/
import proofs.«109260_j16432544874989_1_alg».proof.Proof.Gen.KernelIdeal.Frame
import proofs.«109260_j16432544874989_1_alg».proof.Proof.RefRead

set_option maxRecDepth 16384

noncomputable section

namespace Cert.KernelIdeal.Host

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## At the first region's entry -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem W3_v3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

theorem W3_v6 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

/-! ### The edge weights, stage by stage: degrees and their inverse square roots after the first stretch, the `where`
    that zeroes the isolated nodes, then the two gathers and their product -/

theorem W1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp <;> rfl

theorem W1_v6 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results_simp <;> rfl

theorem W1_v12 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp <;> rfl

theorem W1_v15 : W1 m ρ c (Proc.devRef .tc main_v15) = Cert.ReferenceIdeal.ReadP.val_main_v15 (F := Ideal) (m ((c : Thread nD τ).loc main_arg1)) := by
  show StableHlo.after hostOps0 (W0 m ρ c) (Proc.devRef .tc main_v15) = _
  after_results_simp <;> rfl

theorem W1_cst_3 : W1 m ρ c (Proc.devRef .tc main_cst_3) = Cert.ReferenceIdeal.ReadP.val_main_cst_3 (F := Ideal) := by
  show StableHlo.after hostOps0 (W0 m ρ c) (Proc.devRef .tc main_cst_3) = _
  after_results_simp <;> rfl

/-- The called `where`, over any contents: select between the second operand and the stretched scalar third operand. -/
theorem where_result (X : Valuation τ sig (Elt Ideal)) :
    StableHlo.after (hostOps0_1 (F := Ideal)) X (Proc.devRef .tc main_v16)
      = select (s := S100000) (X (Proc.devRef .tc main_v12)) (X (Proc.devRef .tc main_v15))
          (broadcastInDim S100000 ![] bcast_S_S100000 (id (X (Proc.devRef .tc main_cst_3)))) := by
  after_results_simp <;> rfl

theorem W2_v16 : W2 m ρ c (Proc.devRef .tc main_v16) = Cert.ReferenceIdeal.ReadP.val_main_v16 (F := Ideal) (m ((c : Thread nD τ).loc main_arg1)) := by
  show StableHlo.after hostOps0_1 (W1 m ρ c) (Proc.devRef .tc main_v16) = _
  rw [where_result (W1 m ρ c), W1_v12 m ρ c, W1_v15 m ρ c, W1_cst_3 m ρ c]
  rfl

theorem W2_v3 : W2 m ρ c (Proc.devRef .tc main_v3) = Cert.ReferenceIdeal.ReadP.val_main_v3 (F := Ideal) (m ((c : Thread nD τ).loc main_arg1)) :=
  (show StableHlo.after hostOps0_1 (W1 m ρ c) (Proc.devRef .tc main_v3) = W1 m ρ c (Proc.devRef .tc main_v3) from by
    after_results_simp <;> rfl).trans (W1_v3 m ρ c)

theorem W2_v6 : W2 m ρ c (Proc.devRef .tc main_v6) = Cert.ReferenceIdeal.ReadP.val_main_v6 (F := Ideal) (m ((c : Thread nD τ).loc main_arg1)) :=
  (show StableHlo.after hostOps0_1 (W1 m ρ c) (Proc.devRef .tc main_v6) = W1 m ρ c (Proc.devRef .tc main_v6) from by
    after_results_simp <;> rfl).trans (W1_v6 m ρ c)

theorem W3_v31 : W3 m ρ c (Proc.devRef .tc main_v31) = Cert.ReferenceIdeal.ReadP.val_main_v31 (F := Ideal) (m ((c : Thread nD τ).loc main_arg1)) := by
  show StableHlo.after hostOps0_2 (W2 m ρ c) (Proc.devRef .tc main_v31) = _
  have e16 := W2_v16 m ρ c
  have e3 := W2_v3 m ρ c
  have e6 := W2_v6 m ρ c
  generalize W2 m ρ c = X at e16 e3 e6 ⊢
  after_results_simp
  rw [e16, e3, e6]
  rfl

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## After the first region (it owns the features, the first weights and its result only) -/

theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)

theorem W4_v6 : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)

theorem W4_v31 : W4 m ρ c (Proc.devRef .tc main_v31) = Cert.ReferenceIdeal.ReadP.val_main_v31 (F := Ideal) (m ((c : Thread nD τ).loc main_arg1)) :=
  (W4_of_ne m ρ c main_v31 (by decide)).trans (W3_v31 m ρ c)

theorem W4_arg3 : W4 m ρ c (Proc.devRef .tc main_arg3) = m ((c : Thread nD τ).loc main_arg3) :=
  (W4_of_ne m ρ c main_arg3 (by decide)).trans (W3_arg3 m ρ c)

theorem W4_arg4 : W4 m ρ c (Proc.devRef .tc main_arg4) = m ((c : Thread nD τ).loc main_arg4) :=
  (W4_of_ne m ρ c main_arg4 (by decide)).trans (W3_arg4 m ρ c)

theorem W4_arg5 : W4 m ρ c (Proc.devRef .tc main_arg5) = m ((c : Thread nD τ).loc main_arg5) :=
  (W4_of_ne m ρ c main_arg5 (by decide)).trans (W3_arg5 m ρ c)

/-! ## After the stretch before the second region -/

theorem W5_v3 : W5 m ρ c (Proc.devRef .tc main_v3) = Cert.ReferenceIdeal.ReadP.val_main_v3 (F := Ideal) (m ((c : Thread nD τ).loc main_arg1)) :=
  (show StableHlo.after hostOps1 (W4 m ρ c) (Proc.devRef .tc main_v3) = W4 m ρ c (Proc.devRef .tc main_v3) from by
    after_results_simp <;> rfl).trans (W4_v3 m ρ c)

theorem W5_v6 : W5 m ρ c (Proc.devRef .tc main_v6) = Cert.ReferenceIdeal.ReadP.val_main_v6 (F := Ideal) (m ((c : Thread nD τ).loc main_arg1)) :=
  (show StableHlo.after hostOps1 (W4 m ρ c) (Proc.devRef .tc main_v6) = W4 m ρ c (Proc.devRef .tc main_v6) from by
    after_results_simp <;> rfl).trans (W4_v6 m ρ c)

theorem W5_v31 : W5 m ρ c (Proc.devRef .tc main_v31) = Cert.ReferenceIdeal.ReadP.val_main_v31 (F := Ideal) (m ((c : Thread nD τ).loc main_arg1)) :=
  (show StableHlo.after hostOps1 (W4 m ρ c) (Proc.devRef .tc main_v31) = W4 m ρ c (Proc.devRef .tc main_v31) from by
    after_results_simp <;> rfl).trans (W4_v31 m ρ c)

theorem W5_arg3 : W5 m ρ c (Proc.devRef .tc main_arg3) = m ((c : Thread nD τ).loc main_arg3) :=
  (show StableHlo.after hostOps1 (W4 m ρ c) (Proc.devRef .tc main_arg3) = W4 m ρ c (Proc.devRef .tc main_arg3) from by
    after_results_simp <;> rfl).trans (W4_arg3 m ρ c)

theorem W5_arg4 : W5 m ρ c (Proc.devRef .tc main_arg4) = m ((c : Thread nD τ).loc main_arg4) :=
  (show StableHlo.after hostOps1 (W4 m ρ c) (Proc.devRef .tc main_arg4) = W4 m ρ c (Proc.devRef .tc main_arg4) from by
    after_results_simp <;> rfl).trans (W4_arg4 m ρ c)

theorem W5_arg5 : W5 m ρ c (Proc.devRef .tc main_arg5) = m ((c : Thread nD τ).loc main_arg5) :=
  (show StableHlo.after hostOps1 (W4 m ρ c) (Proc.devRef .tc main_arg5) = W4 m ρ c (Proc.devRef .tc main_arg5) from by
    after_results_simp <;> rfl).trans (W4_arg5 m ρ c)

/-! ## After the second region (it owns the first aggregated array, the bias row, the second weights and its result) -/

theorem W6_v3 : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)

theorem W6_v6 : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)

theorem W6_v31 : W6 m ρ c (Proc.devRef .tc main_v31) = Cert.ReferenceIdeal.ReadP.val_main_v31 (F := Ideal) (m ((c : Thread nD τ).loc main_arg1)) :=
  (W6_of_ne m ρ c main_v31 (by decide)).trans (W5_v31 m ρ c)

theorem W6_arg3 : W6 m ρ c (Proc.devRef .tc main_arg3) = m ((c : Thread nD τ).loc main_arg3) :=
  (W6_of_ne m ρ c main_arg3 (by decide)).trans (W5_arg3 m ρ c)

theorem W6_arg5 : W6 m ρ c (Proc.devRef .tc main_arg5) = m ((c : Thread nD τ).loc main_arg5) :=
  (W6_of_ne m ρ c main_arg5 (by decide)).trans (W5_arg5 m ρ c)

end Cert.KernelIdeal.Host

end
-- ==== Proof.RefLayers.lean ====
/-
  The reference's three dense stages are the specification's functions.

  Its first `dot_general` is `lin` of the features and the first weights. Its second layer — the aggregated array plus
  the broadcast bias, the leaky rectifier as compare / scale / select, the `dot_general` with the second weights — is
  `hidden` of the aggregated array, the bias laid out as a row, and the weights. Its result — the second aggregated
  array plus the broadcast bias — is `addRow`. A bias broadcast to one row is the bias laid out as a row.
-/
import proofs.«109260_j16432544874989_1_alg».proof.Proof.RefRead
import proofs.«109260_j16432544874989_1_alg».proof.Proof.LibGcnLayers

noncomputable section

namespace Cert.ReferenceIdeal.Layers

open Cert.ReferenceIdeal Cert.ReferenceIdeal.ReadP
open Idealize.ShloMosaic Idealize.ShloMosaic.TcCoe Idealize.ShloMosaic.ValueIdx

/-- The first product is `lin`. -/
theorem v32_eq (x0 : (⟨S100000x256, .f32⟩ : BufTy).Contents (Elt Ideal)) (x2 : (⟨S256x128, .f32⟩ : BufTy).Contents (Elt Ideal)) :
    val_main_v32 (F := Ideal) x0 x2 = GcnLayers.lin (N := 100000) (K := 256) (D := 128) x0 x2 := by
  funext i
  rw [val_main_v32_apply]
  refine Finset.sum_congr rfl fun k _ => ?_
  have el : lidx_main_v32 i k = ix2 (n0 := 100000) (n1 := 256) (i 0) k :=
    funext fun a => by match a with | ⟨0, _⟩ => rfl | ⟨1, _⟩ => rfl
  have er : ridx_main_v32 i k = ix2 (n0 := 256) (n1 := 128) k (i 1) :=
    funext fun a => by match a with | ⟨0, _⟩ => rfl | ⟨1, _⟩ => rfl
  rw [el, er]

/-- A bias broadcast to one row of 128 is the bias laid out as a row. -/
theorem v46_eq (x3 : (⟨S128, .f32⟩ : BufTy).Contents (Elt Ideal)) : val_main_v46 (F := Ideal) x3 = GcnLayers.asRow (K := 128) x3 := by
  funext j
  rw [val_main_v46_apply]
  exact congrArg x3 (funext fun a => by match a with | ⟨0, _⟩ => rfl)

/-- A bias broadcast to one row of 64 is the bias laid out as a row. -/
theorem v68_eq (x5 : (⟨S64, .f32⟩ : BufTy).Contents (Elt Ideal)) : val_main_v68 (F := Ideal) x5 = GcnLayers.asRow (K := 64) x5 := by
  funext j
  rw [val_main_v68_apply]
  exact congrArg x5 (funext fun a => by match a with | ⟨0, _⟩ => rfl)

/-- The second layer up to its product is `hidden` of the first aggregated array, the bias row and the weights. -/
theorem v54_eq (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) :
    val_main_v54 (F := Ideal) x0 x1 x2 x3 x4
      = GcnLayers.hidden (N := 100000) (K := 128) (D := 64) (val_main_v45 (F := Ideal) x0 x1 x2) (val_main_v46 (F := Ideal) x3) x4 := by
  funext i
  rw [val_main_v54_apply]
  refine Finset.sum_congr rfl fun k _ => ?_
  have el : lidx_main_v54 i k = ix2 (n0 := 100000) (n1 := 128) (i 0) k :=
    funext fun a => by match a with | ⟨0, _⟩ => rfl | ⟨1, _⟩ => rfl
  have er : ridx_main_v54 i k = ix2 (n0 := 128) (n1 := 64) k (i 1) :=
    funext fun a => by match a with | ⟨0, _⟩ => rfl | ⟨1, _⟩ => rfl
  have eb : idx_main_v47 (ix2 (n0 := 100000) (n1 := 128) (i 0) k) = ix2 (n0 := 1) (n1 := 128) 0 k :=
    funext fun a => by match a with | ⟨0, _⟩ => rfl | ⟨1, _⟩ => rfl
  rw [el, er]
  refine congrArg (· * x4 (ix2 (n0 := 128) (n1 := 64) k (i 1))) ?_
  rw [val_main_v53_apply, val_main_v50_apply, val_main_v52_apply, val_main_v48_apply, val_main_v49_apply, val_main_v51_apply,
    val_main_cst_10_apply, val_main_cst_11_apply, val_main_v47_apply, eb]
  rfl

/-- The result is `addRow` of the second aggregated array and the bias row. -/
theorem v70_eq (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v70 (F := Ideal) x0 x1 x2 x3 x4 x5
      = GcnLayers.addRow (N := 100000) (D := 64) (val_main_v67 (F := Ideal) x0 x1 x2 x3 x4) (val_main_v68 (F := Ideal) x5) := by
  funext i
  rw [val_main_v70_apply, val_main_v69_apply]
  have eb : idx_main_v69 i = ix2 (n0 := 1) (n1 := 64) 0 (i 1) :=
    funext fun a => by match a with | ⟨0, _⟩ => rfl | ⟨1, _⟩ => rfl
  rw [eb]
  rfl

end Cert.ReferenceIdeal.Layers

end
-- ==== Proof.KValue.lean ====
/-
  The idealized kernel's result is the reference's result function of the launch arguments.

  Follow the result array back through @main. The third pallas_call leaves `addRow` of the second aggregated array and
  the second bias laid out as a row. That aggregated array is the gather / scale / scatter-add stretch applied to what
  the second pallas_call leaves, `hidden` of the first aggregated array, the first bias row and the second weights; and
  the first aggregated array is the same kind of stretch applied to what the first pallas_call leaves, `lin` of the features
  and the first weights. The reference computes the same three dense stages by host operations and runs the very same
  gather / scale / scatter-add operations on the same edge data in between, so stage by stage the two agree; the shared
  stretches are never opened.
-/
import proofs.«109260_j16432544874989_1_alg».proof.Proof.Gen.KernelIdeal.Frame
import proofs.«109260_j16432544874989_1_alg».proof.Proof.RefRead
import proofs.«109260_j16432544874989_1_alg».proof.Proof.KRegion0
import proofs.«109260_j16432544874989_1_alg».proof.Proof.KRegion1
import proofs.«109260_j16432544874989_1_alg».proof.Proof.KRegion2
import proofs.«109260_j16432544874989_1_alg».proof.Proof.KEdges
import proofs.«109260_j16432544874989_1_alg».proof.Proof.RefLayers

set_option maxRecDepth 16384

noncomputable section

namespace Cert.KernelIdeal.Host

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- What the first pallas_call leaves: the reference's first product. -/
theorem W4_v32 : W4 m ρ c (Proc.devRef .tc main_v32) = Cert.ReferenceIdeal.ReadP.val_main_v32 (F := Ideal) (m ((c : Thread nD τ).loc main_arg0)) (m ((c : Thread nD τ).loc main_arg2)) := by
  show W4 m ρ c (Proc.devRef .tc (Pipeline.arrRef spec0 2)) = _
  rw [W4_arr m ρ c 2, Cert.KernelIdeal.Dense.final0 (V3 m ρ) c]
  show GcnLayers.lin (N := 100000) (K := 256) (D := 128) (W3 m ρ c (Proc.devRef .tc main_arg0)) (W3 m ρ c (Proc.devRef .tc main_arg2)) = _
  rw [W3_arg0 m ρ c, W3_arg2 m ρ c, Cert.ReferenceIdeal.Layers.v32_eq]

/-- The first aggregated array: gather by source, scale by the edge weight, scatter-add by destination. -/
theorem W5_v45 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) := by
  show StableHlo.after hostOps1 (W4 m ρ c) (Proc.devRef .tc main_v45) = _
  after_results_simp
  rw [W4_v3 m ρ c, W4_v6 m ρ c, W4_v31 m ρ c, W4_v32 m ρ c]
  rfl

/-- The first bias, reshaped to one row. -/
theorem W5_v46 : W5 m ρ c (Proc.devRef .tc main_v46) = Cert.ReferenceIdeal.ReadP.val_main_v46 (F := Ideal) (m ((c : Thread nD τ).loc main_arg3)) := by
  show StableHlo.after hostOps1 (W4 m ρ c) (Proc.devRef .tc main_v46) = _
  after_results_simp
  rw [W4_arg3 m ρ c]
  show shapeCast S1x128 (m ((c : Thread nD τ).loc main_arg3)) shapeCasts_S128_S1x128 = _
  exact (GcnLayers.shapeCast_asRow (K := 128) (m ((c : Thread nD τ).loc main_arg3)) shapeCasts_S128_S1x128).trans
    (Cert.ReferenceIdeal.Layers.v46_eq (m ((c : Thread nD τ).loc main_arg3))).symm

/-- What the second pallas_call leaves: the reference's second product. -/
theorem W6_v47 : W6 m ρ c (Proc.devRef .tc main_v47)
    = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show W6 m ρ c (Proc.devRef .tc (Pipeline.arrRef spec1 3)) = _
  rw [W6_arr m ρ c 3, Cert.KernelIdeal.Dense.final1 (V5 m ρ) c]
  show GcnLayers.hidden (N := 100000) (K := 128) (D := 64) (W5 m ρ c (Proc.devRef .tc main_v45)) (W5 m ρ c (Proc.devRef .tc main_v46))
    (W5 m ρ c (Proc.devRef .tc main_arg4)) = _
  rw [W5_v45 m ρ c, W5_v46 m ρ c, W5_arg4 m ρ c, Cert.ReferenceIdeal.Layers.v54_eq]

/-- The second aggregated array. -/
theorem W7_v60 : W7 m ρ c (Proc.devRef .tc main_v60)
    = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v60) = _
  after_results_simp
  rw [W6_v3 m ρ c, W6_v6 m ρ c, W6_v31 m ρ c, W6_v47 m ρ c]
  rfl

/-- The second bias, reshaped to one row. -/
theorem W7_v61 : W7 m ρ c (Proc.devRef .tc main_v61) = Cert.ReferenceIdeal.ReadP.val_main_v68 (F := Ideal) (m ((c : Thread nD τ).loc main_arg5)) := by
  show StableHlo.after hostOps2 (W6 m ρ c) (Proc.devRef .tc main_v61) = _
  after_results_simp
  rw [W6_arg5 m ρ c]
  show shapeCast S1x64 (m ((c : Thread nD τ).loc main_arg5)) shapeCasts_S64_S1x64 = _
  exact (GcnLayers.shapeCast_asRow (K := 64) (m ((c : Thread nD τ).loc main_arg5)) shapeCasts_S64_S1x64).trans
    (Cert.ReferenceIdeal.Layers.v68_eq (m ((c : Thread nD τ).loc main_arg5))).symm

/-- The result buffer at the last boundary is the reference's result function of the launch arguments. -/
theorem result_eq : W8 m ρ c (Proc.devRef .tc main_v62)
    = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show W8 m ρ c (Proc.devRef .tc (Pipeline.arrRef spec2 2)) = _
  rw [W8_arr m ρ c 2, Cert.KernelIdeal.Dense.final2 (V7 m ρ) c]
  show GcnLayers.addRow (N := 100000) (D := 64) (W7 m ρ c (Proc.devRef .tc main_v60)) (W7 m ρ c (Proc.devRef .tc main_v61)) = _
  rw [W7_v60 m ρ c, W7_v61 m ρ c, Cert.ReferenceIdeal.Layers.v70_eq]

end Cert.KernelIdeal.Host

end
-- ==== Proof.lean ====
/-
  A two-layer graph convolution with symmetric normalisation, computed with three pallas_calls, against its plain jnp
  reference: at the ideal instance (floats are extended reals, operations exact, changes of float format the identity)
  the two programs return the same [100000, 64] array.

  Both programs first build, from the edge list alone, the source and destination indices (the edges, then one self loop
  per node), the degrees, and the edge weights dinv[src]·dinv[dst] — by the same host operations. Both then run

      h1 = x·W1,   a1 = scatter-add over dst of (h1[src] · weight),
      h2 = leaky_relu(a1 + b1)·W2,   a2 = scatter-add over dst of (h2[src] · weight),   out = a2 + b2,

  and the gather / scale / scatter-add stretches are again the same host operations in both. They differ only in who
  computes the three dense stages: the reference by `dot_general`, `add`, `compare`, `multiply`, `select` on whole arrays, the
  kernel tile by tile (5000 rows per grid point for the two products, 10000 for the last addition), with the factors cast
  to a shorter float format before each product — the identity here — and each product taken into a zero accumulator.
  A tile of rows of a product, of bias + rectifier + product, or of a row-wise addition depends on those rows alone, the
  tiles of each call cover all rows, so each call leaves the whole-array function (`lin`, `hidden`, `addRow`) of the arrays
  it finds, and those are the reference's stages. No algebraic law beyond "a product into zero is the sum of products" is
  used and no finiteness: the two results are the same expression of the arguments. The leaky slope is the same 32-bit
  word in both programs and is never evaluated.

  The frames of the two kernel programs are the generated frame certificates; the reference's frame is its run with the
  result dropped; the idealization rewrote nothing, so `preserves` is trivial.
-/
import proofs.«109260_j16432544874989_1_alg».proof.Defs
import proofs.«109260_j16432544874989_1_alg».proof.Proof.Gen.Kernel
import proofs.«109260_j16432544874989_1_alg».proof.Proof.Gen.Kernel.Skeleton
import proofs.«109260_j16432544874989_1_alg».proof.Proof.Gen.Kernel.Launch
import proofs.«109260_j16432544874989_1_alg».proof.Proof.Gen.Kernel.Points
import proofs.«109260_j16432544874989_1_alg».proof.Proof.Gen.Kernel.Frame
import proofs.«109260_j16432544874989_1_alg».proof.Proof.Gen.KernelIdeal
import proofs.«109260_j16432544874989_1_alg».proof.Proof.Gen.KernelIdeal.Skeleton
import proofs.«109260_j16432544874989_1_alg».proof.Proof.Gen.KernelIdeal.Launch
import proofs.«109260_j16432544874989_1_alg».proof.Proof.Gen.KernelIdeal.Points
import proofs.«109260_j16432544874989_1_alg».proof.Proof.Gen.KernelIdeal.Frame
import proofs.«109260_j16432544874989_1_alg».proof.Proof.Gen.ReferenceIdeal
import proofs.«109260_j16432544874989_1_alg».proof.Proof.Gen.Pre_finite_inputs
import proofs.«109260_j16432544874989_1_alg».proof.Proof.RefRead
import proofs.«109260_j16432544874989_1_alg».proof.Proof.KRun
import proofs.«109260_j16432544874989_1_alg».proof.Proof.KValue
import Idealize.ShloMosaic.Adequacy
import Idealize.ShloMosaic.Init

noncomputable section

namespace Cert.Proof

open Idealize.ShloMosaic Idealize.SL.Sem

/-- The word-level kernel runs and keeps its arguments: the generated frame certificate. -/
theorem frame_k : Cert.frame_Kernel := fun m ρ _ => Cert.Kernel.Gen.frame m ρ

/-- The idealized kernel runs and keeps its arguments: the generated frame certificate. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the reference's result function of the (shared) arguments in their result buffers. -/
theorem algebraic : Cert.algebraic_KernelIdeal_ReferenceIdeal := by
  intro m ρ m' ρ' _ hagree
  refine ⟨fun c => Cert.ReferenceIdeal.ReadP.val_main_v70 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Host.result_eq m ρ c), (h c).2⟩)
      (Cert.KernelIdeal.Launched.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v70_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
